-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S16384 : Shape := ⟨1, ![16384]⟩
abbrev S16x1024x256 : Shape := ⟨3, ![16, 1024, 256]⟩
abbrev S16x256x1024 : Shape := ⟨3, ![16, 256, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S16x1024x256 : S_.BroadcastsInDim S16x1024x256 (![] : Fin 0 → Fin S16x1024x256.rank)
  reducesTo_S16x1024x256_S_d0_1_2 : S16x1024x256.ReducesTo [0, 1, 2] S_
  bcast_S_S16x256x1024 : S_.BroadcastsInDim S16x256x1024 (![] : Fin 0 → Fin S16x256x1024.rank)
  reducesTo_S16x256x1024_S_d0_1_2 : S16x256x1024.ReducesTo [0, 1, 2] S_

variable [Facts]

def fn {F : FTy → Type} [FloatOps F] (main_arg0 : FVec F S4x4096x1024 .f32) (main_arg1 : IVec S16384 32) (main_arg2 : FVec F S16x1024x256 .f32) (main_arg3 : FVec F S16x256x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S16x1024x256 .f32 := Host.absf main_arg2
  let main_cst_0 : FVec F S_ .f32 := constant S_ .f32 0x7F800000#32
  let main_v5 : FVec F S16x1024x256 .f32 := broadcastInDim S16x1024x256 ![] bcast_S_S16x1024x256 main_cst_0
  let main_v6 : IVec S16x1024x256 1 := cmpf .olt main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S16x256x1024 .f32 := Host.absf main_arg3
  let main_cst_2 : FVec F S_ .f32 := constant S_ .f32 0x7F800000#32
  let main_v10 : FVec F S16x256x1024 .f32 := broadcastInDim S16x256x1024 ![] bcast_S_S16x256x1024 main_cst_2
  let main_v11 : IVec S16x256x1024 1 := cmpf .olt main_v9 main_v10
  let main_c_3 : IVec S_ 1 := constantI S_ 1 1#1
  let main_v12 : IVec S_ 1 := (fun x v => Host.reduce IntOp.andi x v reducesTo_S16x256x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S16384 : Shape := ⟨1, ![16384]⟩
abbrev S16x1024x256 : Shape := ⟨3, ![16, 1024, 256]⟩
abbrev S16x256x1024 : Shape := ⟨3, ![16, 256, 1024]⟩
abbrev S16384x1024 : Shape := ⟨2, ![16384, 1024]⟩
abbrev S_ : Shape := ⟨0, ![]⟩
abbrev S16384x1 : Shape := ⟨2, ![16384, 1]⟩
abbrev S16x1024x1024 : Shape := ⟨3, ![16, 1024, 1024]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 29
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S16384, .i32⟩
  | .hbm, ⟨2, _⟩ => ⟨S16x1024x256, .f32⟩
  | .hbm, ⟨3, _⟩ => ⟨S16x256x1024, .f32⟩
  | .hbm, ⟨4, _⟩ => ⟨S16384x1024, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .f32⟩
  | .hbm, ⟨14, _⟩ => ⟨S16x1024x1024, .f32⟩
  | .hbm, ⟨15, _⟩ => ⟨S16x1024x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1024, .f32⟩
  | .hbm, ⟨28, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .f32⟩
  | .local _ .vmem, ⟨7, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x1024_S16x1024x1024 : S16384x1024.ShapeCasts S16x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1024x1024_S1x1024x1024 : S1024x1024.ShapeCasts S1x1024x1024
  shapeCasts_S16x1024x1024_S16384x1024 : S16x1024x1024.ShapeCasts S16384x1024
  bcast_S_S16384x1024 : S_.BroadcastsInDim S16384x1024 (![] : Fin 0 → Fin S16384x1024.rank)
  shapeCasts_S16384x1024_S4x4096x1024 : S16384x1024.ShapeCasts S4x4096x1024
  gather_S16384x1024_S16384x1_S16384x1024_1_0_n_n_0_1_11024_wf : GatherDims.WF S16384x1024 S16384x1 S16384x1024 [1] [0] [] [0] [] 1 ![1, 1024]
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  scatter_S16384x1024_S16384x1_S16384x1024_1_0_0_1_wf : ScatterDims.WF S16384x1024 S16384x1 S16384x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x1024x256.size a
  hwx0_1 : ∀ i : grid0.Coords, EltTy.bits .f32 = 32 ∨ (Rect.block (s := S16x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x256x1024.size a
  hwx0_2 : ∀ i : grid0.Coords, EltTy.bits .f32 = 32 ∨ (Rect.block (s := S16x256x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)

variable [Facts₀]

def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def scatter_S16384x1024_S16384x1_S16384x1024_1_0_0_1 : ScatterDims S16384x1024 S16384x1 S16384x1024 where
  updateWindowDims := [1]
  insertedWindowDims := [0]
  scatterDimsToOperandDims := [0]
  indexVectorDim := 1
  wf := scatter_S16384x1024_S16384x1_S16384x1024_1_0_0_1_wf

abbrev win0_0 : Pipeline.Window sig grid0 :=
  Pipeline.Window.ofSpec (Memref.whole main_v8) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S16384 : Shape := ⟨1, ![16384]⟩
abbrev S16x1024x256 : Shape := ⟨3, ![16, 1024, 256]⟩
abbrev S16x256x1024 : Shape := ⟨3, ![16, 256, 1024]⟩
abbrev S16384x1024 : Shape := ⟨2, ![16384, 1024]⟩
abbrev S_ : Shape := ⟨0, ![]⟩
abbrev S16384x1 : Shape := ⟨2, ![16384, 1]⟩
abbrev S16x1024x1024 : Shape := ⟨3, ![16, 1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384, .i32⟩
  | .hbm, ⟨2, _⟩ => ⟨S16x1024x256, .f32⟩
  | .hbm, ⟨3, _⟩ => ⟨S16x256x1024, .f32⟩
  | .hbm, ⟨4, _⟩ => ⟨S16384x1024, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .f32⟩
  | .hbm, ⟨14, _⟩ => ⟨S16x1024x1024, .f32⟩
  | .hbm, ⟨15, _⟩ => ⟨S16x1024x256, .f32⟩
  | .hbm, ⟨16, _⟩ => ⟨S_, .f32⟩
  | .hbm, ⟨17, _⟩ => ⟨S16x1024x256, .f32⟩
  | .hbm, ⟨18, _⟩ => ⟨S16x1024x256, .f32⟩
  | .hbm, ⟨19, _⟩ => ⟨S16x1024x256, .f32⟩
  | .hbm, ⟨20, _⟩ => ⟨S16x1024x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x1024, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  shapeCasts_S4x4096x1024_S16384x1024 : S4x4096x1024.ShapeCasts S16384x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x1024_S16x1024x1024 : S16384x1024.ShapeCasts S16x1024x1024
  bcast_S_S16x1024x256 : S_.BroadcastsInDim S16x1024x256 (![] : Fin 0 → Fin S16x1024x256.rank)
  shapeCasts_S16x1024x1024_S16384x1024 : S16x1024x1024.ShapeCasts S16384x1024
  bcast_S_S16384x1024 : S_.BroadcastsInDim S16384x1024 (![] : Fin 0 → Fin S16384x1024.rank)
  shapeCasts_S16384x1024_S4x4096x1024 : S16384x1024.ShapeCasts S4x4096x1024
  gather_S16384x1024_S16384x1_S16384x1024_1_0_n_n_0_1_11024_wf : GatherDims.WF S16384x1024 S16384x1 S16384x1024 [1] [0] [] [0] [] 1 ![1, 1024]
  dot_S16x1024x1024_S16x1024x256_S16x1024x256_2_1_1_2_0_0_wf : DotDims.WF S16x1024x1024 S16x1024x256 S16x1024x256 [2] [1] [1] [2] [0] [0]
  dot_S16x1024x256_S16x256x1024_S16x1024x1024_2_1_1_2_0_0_wf : DotDims.WF S16x1024x256 S16x256x1024 S16x1024x1024 [2] [1] [1] [2] [0] [0]
  scatter_S16384x1024_S16384x1_S16384x1024_1_0_0_1_wf : ScatterDims.WF S16384x1024 S16384x1 S16384x1024 [1] [0] [0] 1

variable [Facts₀]

def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf
def dot_S16x1024x256_S16x256x1024_S16x1024x1024_2_1_1_2_0_0 : DotDims S16x1024x256 S16x256x1024 S16x1024x1024 where
  lhsContracting := [2]
  rhsContracting := [1]
  lhsNonContracting := [1]
  rhsNonContracting := [2]
  lhsBatch := [0]
  rhsBatch := [0]
  wf := dot_S16x1024x256_S16x256x1024_S16x1024x1024_2_1_1_2_0_0_wf
def scatter_S16384x1024_S16384x1_S16384x1024_1_0_0_1 : ScatterDims S16384x1024 S16384x1 S16384x1024 where
  updateWindowDims := [1]
  insertedWindowDims := [0]
  scatterDimsToOperandDims := [0]
  indexVectorDim := 1
  wf := scatter_S16384x1024_S16384x1_S16384x1024_1_0_0_1_wf

class Facts : Prop extends Facts₀ where

variable [Facts]
-- ==== Proof.Mlp.lean ====
/-
  The mathematics both programs compute between the gather and the scatter: sixteen experts, each a two-layer
  perceptron with a squared-ReLU between the layers, applied to its own 1024 tokens.

  For expert `e`, token row `r` and hidden unit `f` the first layer is the plain sum
  `pre e r f = ∑ d, xe[e, r, d] · w1[e, d, f]` over the 1024 model dimensions; the activation is
  `hidden e r f = max(pre, 0) · max(pre, 0)`; the second layer is `∑ f, hidden e r f · w2[e, f, c]` over the 256
  hidden units. Everything is an extended real and every operation the exact one, so the only facts ever used about
  these sums are that they are sums: no order of summation, no tiling and no change of float format appears.
-/
import Idealize.ShloMosaic.PureOps.Ideal
import Idealize.ShloMosaic.Lib.ValueIdx

noncomputable section

open scoped BigOperators

namespace Cert.ExpertMlp

open Idealize.ShloMosaic Idealize.ShloMosaic.ValueIdx

/-- The tokens grouped by expert: [expert, row, model dimension]; also the shape of the result. -/
abbrev Tok : Shape := ⟨3, ![16, 1024, 1024]⟩
/-- The first layer's weights: [expert, model dimension, hidden unit]. -/
abbrev Fc : Shape := ⟨3, ![16, 1024, 256]⟩
/-- The second layer's weights: [expert, hidden unit, model dimension]. -/
abbrev Pr : Shape := ⟨3, ![16, 256, 1024]⟩

/-- The first layer before the activation: row `r` of expert `e`'s tokens against column `f` of its weights. -/
def pre (xe : Tok.Idx → EReal) (w1 : Fc.Idx → EReal) (e : Fin 16) (r : Fin 1024) (f : Fin 256) : EReal :=
  ∑ d : Fin 1024, xe (ix3 e r d) * w1 (ix3 e d f)

/-- The squared ReLU of the first layer. -/
def hidden (xe : Tok.Idx → EReal) (w1 : Fc.Idx → EReal) (e : Fin 16) (r : Fin 1024) (f : Fin 256) : EReal :=
  max (pre xe w1 e r f) 0 * max (pre xe w1 e r f) 0

/-- The second layer at expert `e`, row `r`, output column `c`. -/
def mlpAt (xe : Tok.Idx → EReal) (w1 : Fc.Idx → EReal) (w2 : Pr.Idx → EReal) (e : Fin 16) (r : Fin 1024) (c : Fin 1024) : EReal :=
  ∑ f : Fin 256, hidden xe w1 e r f * w2 (ix3 e f c)

/-- The whole stage as one function of the grouped tokens and the two weight arrays. -/
def mlp (xe : Tok.Idx → EReal) (w1 : Fc.Idx → EReal) (w2 : Pr.Idx → EReal) : Tok.Idx → EReal :=
  fun i => mlpAt xe w1 w2 (i 0) (i 1) (i 2)

/-- At an index given by its coordinates the stage is `mlpAt` there. -/
theorem mlp_ix3 (xe : Tok.Idx → EReal) (w1 : Fc.Idx → EReal) (w2 : Pr.Idx → EReal) (e : Fin 16) (r : Fin 1024) (c : Fin 1024) :
    mlp xe w1 w2 (ix3 e r c) = mlpAt xe w1 w2 e r c := rfl

end Cert.ExpertMlp

end
-- ==== Proof.Payload.lean ====
/-
  What the kernel body stores for one expert, read at an index: the value it writes at row `r`, column `c` of its
  [1, 1024, 1024] block is `∑ f, (max(∑ d, x[r, d] · w1[d, f], 0))² · w2[f, c]` of the three blocks it loaded.
  The roundings to bf16 on the way into each matrix product are the identity on extended reals; a matrix product into
  the zero accumulator is the plain sum over the contracted axis; the leading unit axis of each block is dropped and
  added back by shape casts that move no element.
-/
import proofs.«107455_j39067022524585_1_alg».proof.Proof.Gen.KernelIdeal.Skeleton
import proofs.«107455_j39067022524585_1_alg».proof.Proof.Mlp
import Idealize.ShloMosaic.Lib.ValueIdx
import Idealize.ShloMosaic.Lib.ValueLayout
import Idealize.ShloMosaic.PureOps.Ideal.Laws

noncomputable section

open scoped BigOperators

namespace Cert.ExpertMlp.Body

open Cert.KernelIdeal Cert.KernelIdeal.Gen Cert.ExpertMlp
open Idealize.ShloMosaic Idealize.ShloMosaic.ValueIdx

/-- The first product's dimension numbers: rows × (model dimension) times (model dimension) × hidden units. -/
abbrev D1 : DotDims S1024x1024 S1024x256 S1024x256 := dot_S1024x1024_S1024x256_S1024x256_1_0_0_1_n_n
/-- The second product's: rows × hidden units times hidden units × (model dimension). -/
abbrev D2 : DotDims S1024x256 S256x1024 S1024x1024 := dot_S1024x256_S256x1024_S1024x1024_1_0_0_1_n_n

theorem lhs1_0 (i : S1024x256.Idx) (q : D1.contr.Idx) : (D1.lhsIdx i q 0).val = (i 0).val := by
  unfold DotDims.lhsIdx
  rw [dif_neg (show ¬(0 : Fin S1024x1024.rank) ∈ D1.lhsBatch by decide), dif_pos (show (0 : Fin S1024x1024.rank) ∈ D1.lhsNonContracting by decide)]
  rfl
theorem lhs1_1 (i : S1024x256.Idx) (q : D1.contr.Idx) : (D1.lhsIdx i q 1).val = (q ⟨0, by decide⟩).val :=
  D1.lhsIdx_val_of_single rfl i q
theorem rhs1_0 (i : S1024x256.Idx) (q : D1.contr.Idx) : (D1.rhsIdx i q 0).val = (q ⟨0, by decide⟩).val :=
  D1.rhsIdx_val_of_single rfl i q
theorem rhs1_1 (i : S1024x256.Idx) (q : D1.contr.Idx) : (D1.rhsIdx i q 1).val = (i 1).val := by
  unfold DotDims.rhsIdx
  rw [dif_neg (show ¬(1 : Fin S1024x256.rank) ∈ D1.rhsBatch by decide), dif_pos (show (1 : Fin S1024x256.rank) ∈ D1.rhsNonContracting by decide)]
  rfl

theorem lhs2_0 (i : S1024x1024.Idx) (q : D2.contr.Idx) : (D2.lhsIdx i q 0).val = (i 0).val := by
  unfold DotDims.lhsIdx
  rw [dif_neg (show ¬(0 : Fin S1024x256.rank) ∈ D2.lhsBatch by decide), dif_pos (show (0 : Fin S1024x256.rank) ∈ D2.lhsNonContracting by decide)]
  rfl
theorem lhs2_1 (i : S1024x1024.Idx) (q : D2.contr.Idx) : (D2.lhsIdx i q 1).val = (q ⟨0, by decide⟩).val :=
  D2.lhsIdx_val_of_single rfl i q
theorem rhs2_0 (i : S1024x1024.Idx) (q : D2.contr.Idx) : (D2.rhsIdx i q 0).val = (q ⟨0, by decide⟩).val :=
  D2.rhsIdx_val_of_single rfl i q
theorem rhs2_1 (i : S1024x1024.Idx) (q : D2.contr.Idx) : (D2.rhsIdx i q 1).val = (i 1).val := by
  unfold DotDims.rhsIdx
  rw [dif_neg (show ¬(1 : Fin S256x1024.rank) ∈ D2.rhsBatch by decide), dif_pos (show (1 : Fin S256x1024.rank) ∈ D2.rhsNonContracting by decide)]
  rfl

/-- The first matrix product into the zero accumulator, at row `r` and hidden unit `f`: the sum over the model dimension. -/
theorem fc_apply (a : FVec Ideal S1024x1024 .bf16) (b : FVec Ideal S1024x256 .bf16) (r : Fin 1024) (f : Fin 256) :
    matmul D1 none a b (constant S1024x256 .f32 0x00000000#32) (ix2 r f) = ∑ d : Fin 1024, a (ix2 r d) * b (ix2 d f) := by
  refine (Ideal.matmul_constant_zero_apply D1 none a b (ix2 r f)).trans ?_
  rw [← Equiv.sum_comp (contrEquiv1 D1 1024 rfl rfl).symm]
  refine Finset.sum_congr rfl fun k _ => ?_
  have hk := contrEquiv1_symm_val D1 1024 rfl rfl k
  have el : D1.lhsIdx (ix2 r f) ((contrEquiv1 D1 1024 rfl rfl).symm k) = ix2 r k := funext fun a => Fin.ext (by
    match a with
    | ⟨0, _⟩ => exact lhs1_0 _ _
    | ⟨1, _⟩ => exact (lhs1_1 _ _).trans hk)
  have er : D1.rhsIdx (ix2 r f) ((contrEquiv1 D1 1024 rfl rfl).symm k) = ix2 k f := funext fun a => Fin.ext (by
    match a with
    | ⟨0, _⟩ => exact (rhs1_0 _ _).trans hk
    | ⟨1, _⟩ => exact rhs1_1 _ _)
  rw [el, er]

/-- The second matrix product into the zero accumulator, at row `r` and column `c`: the sum over the hidden units. -/
theorem proj_apply (a : FVec Ideal S1024x256 .bf16) (b : FVec Ideal S256x1024 .bf16) (r : Fin 1024) (c : Fin 1024) :
    matmul D2 none a b (constant S1024x1024 .f32 0x00000000#32) (ix2 r c) = ∑ f : Fin 256, a (ix2 r f) * b (ix2 f c) := by
  refine (Ideal.matmul_constant_zero_apply D2 none a b (ix2 r c)).trans ?_
  rw [← Equiv.sum_comp (contrEquiv1 D2 256 rfl rfl).symm]
  refine Finset.sum_congr rfl fun k _ => ?_
  have hk := contrEquiv1_symm_val D2 256 rfl rfl k
  have el : D2.lhsIdx (ix2 r c) ((contrEquiv1 D2 256 rfl rfl).symm k) = ix2 r k := funext fun a => Fin.ext (by
    match a with
    | ⟨0, _⟩ => exact lhs2_0 _ _
    | ⟨1, _⟩ => exact (lhs2_1 _ _).trans hk)
  have er : D2.rhsIdx (ix2 r c) ((contrEquiv1 D2 256 rfl rfl).symm k) = ix2 k c := funext fun a => Fin.ext (by
    match a with
    | ⟨0, _⟩ => exact (rhs2_0 _ _).trans hk
    | ⟨1, _⟩ => exact rhs2_1 _ _)
  rw [el, er]

/-- The activation between the products, at row `r` and hidden unit `f`: the first product clamped below at zero, squared
    (the rounding to bf16 after it is the identity here). -/
theorem act_apply (a : FVec Ideal S1024x1024 .bf16) (b : FVec Ideal S1024x256 .bf16) (r : Fin 1024) (f : Fin 256) :
    (truncf .bf16 (mulf
        (maximumf (matmul D1 none a b (constant S1024x256 .f32 0x00000000#32)) (broadcast S1024x256 (FloatOps.ofBits .f32 0x00000000#32)))
        (maximumf (matmul D1 none a b (constant S1024x256 .f32 0x00000000#32)) (broadcast S1024x256 (FloatOps.ofBits .f32 0x00000000#32))))
      bitsLt_bf16_f32 : FVec Ideal S1024x256 .bf16) (ix2 r f)
      = max (∑ d : Fin 1024, a (ix2 r d) * b (ix2 d f)) 0 * max (∑ d : Fin 1024, a (ix2 r d) * b (ix2 d f)) 0 := by
  show max (matmul D1 none a b (constant S1024x256 .f32 0x00000000#32) (ix2 r f)) (Ideal.ofBits .f32 0x00000000#32)
      * max (matmul D1 none a b (constant S1024x256 .f32 0x00000000#32) (ix2 r f)) (Ideal.ofBits .f32 0x00000000#32) = _
  rw [fc_apply, Ideal.ofBits_zero_f32]

/-- THE BODY'S STORED VALUE at (·, r, c), from the three loaded blocks. -/
theorem pay_apply (x0 : Vec Ideal S1x1024x1024 .f32) (x1 : Vec Ideal S1x1024x256 .f32) (x2 : Vec Ideal S1x256x1024 .f32)
    (u : Fin 1) (r : Fin 1024) (c : Fin 1024) :
    k0_pay1 x0 x1 x2 (ix3 u r c)
      = ∑ f : Fin 256, (max (∑ d : Fin 1024, x0 (ix3 (0 : Fin 1) r d) * x1 (ix3 (0 : Fin 1) d f)) 0
          * max (∑ d : Fin 1024, x0 (ix3 (0 : Fin 1) r d) * x1 (ix3 (0 : Fin 1) d f)) 0) * x2 (ix3 (0 : Fin 1) f c) := by
  unfold k0_pay1
  refine (shapeCast_ab_1ab_apply _ _ u r c).trans ?_
  refine (proj_apply _ _ r c).trans ?_
  refine Finset.sum_congr rfl fun f _ => ?_
  refine congrArg₂ (· * ·) ((act_apply _ _ r f).trans ?_) (shapeCast_1ab_ab_apply x2 _ f c)
  have hpre : (∑ d : Fin 1024, (truncf .bf16 (shapeCast S1024x1024 x0 shapeCasts_S1x1024x1024_S1024x1024) bitsLt_bf16_f32 : FVec Ideal S1024x1024 .bf16) (ix2 r d)
        * (truncf .bf16 (shapeCast S1024x256 x1 shapeCasts_S1x1024x256_S1024x256) bitsLt_bf16_f32 : FVec Ideal S1024x256 .bf16) (ix2 d f))
      = ∑ d : Fin 1024, x0 (ix3 (0 : Fin 1) r d) * x1 (ix3 (0 : Fin 1) d f) :=
    Finset.sum_congr rfl fun d _ => congrArg₂ (· * ·) (shapeCast_1ab_ab_apply x0 _ r d) (shapeCast_1ab_ab_apply x1 _ d f)
  rw [hpre]

/-- ONE EXPERT'S BLOCK IS THE STAGE AT THAT EXPERT: if the three loaded blocks are expert `e`'s slabs of the grouped
    tokens and of the two weight arrays, the value stored at (·, r, c) is the stage at (e, r, c). -/
theorem pay_eq_mlpAt (x0 : Vec Ideal S1x1024x1024 .f32) (x1 : Vec Ideal S1x1024x256 .f32) (x2 : Vec Ideal S1x256x1024 .f32)
    (xe : Tok.Idx → EReal) (w1 : Fc.Idx → EReal) (w2 : Pr.Idx → EReal) (e : Fin 16)
    (h0 : ∀ (r d : Fin 1024), x0 (ix3 (0 : Fin 1) r d) = xe (ix3 e r d))
    (h1 : ∀ (d : Fin 1024) (f : Fin 256), x1 (ix3 (0 : Fin 1) d f) = w1 (ix3 e d f))
    (h2 : ∀ (f : Fin 256) (c : Fin 1024), x2 (ix3 (0 : Fin 1) f c) = w2 (ix3 e f c))
    (u : Fin 1) (r : Fin 1024) (c : Fin 1024) :
    k0_pay1 x0 x1 x2 (ix3 u r c) = mlpAt xe w1 w2 e r c := by
  rw [pay_apply]
  unfold mlpAt hidden pre
  refine Finset.sum_congr rfl fun f _ => ?_
  have hs : (∑ d : Fin 1024, x0 (ix3 (0 : Fin 1) r d) * x1 (ix3 (0 : Fin 1) d f)) = ∑ d : Fin 1024, xe (ix3 e r d) * w1 (ix3 e d f) :=
    Finset.sum_congr rfl fun d _ => by rw [h0, h1]
  rw [hs, h2]

/-- The same with both indices arbitrary and related by their coordinates: the block's index `j` and the array's index
    `i` = (e, j 1, j 2). -/
theorem pay_eq_mlp (x0 : Vec Ideal S1x1024x1024 .f32) (x1 : Vec Ideal S1x1024x256 .f32) (x2 : Vec Ideal S1x256x1024 .f32)
    (xe : Tok.Idx → EReal) (w1 : Fc.Idx → EReal) (w2 : Pr.Idx → EReal) (e : Fin 16)
    (h0 : ∀ (r d : Fin 1024), x0 (ix3 (0 : Fin 1) r d) = xe (ix3 e r d))
    (h1 : ∀ (d : Fin 1024) (f : Fin 256), x1 (ix3 (0 : Fin 1) d f) = w1 (ix3 e d f))
    (h2 : ∀ (f : Fin 256) (c : Fin 1024), x2 (ix3 (0 : Fin 1) f c) = w2 (ix3 e f c))
    (j : S1x1024x1024.Idx) (i : Tok.Idx) (hi0 : (i 0).val = e.val) (hi1 : (i 1).val = (j 1).val) (hi2 : (i 2).val = (j 2).val) :
    k0_pay1 x0 x1 x2 j = mlp xe w1 w2 i := by
  obtain ⟨u, r, c, rfl⟩ : ∃ (u : Fin 1) (r : Fin 1024) (c : Fin 1024), j = ix3 u r c := ⟨j 0, j 1, j 2, eq_ix3 j⟩
  obtain rfl : i = ix3 e r c := funext fun a => Fin.ext (by
    match a with
    | ⟨0, _⟩ => exact hi0
    | ⟨1, _⟩ => exact hi1
    | ⟨2, _⟩ => exact hi2)
  rw [mlp_ix3]
  exact pay_eq_mlpAt x0 x1 x2 xe w1 w2 e h0 h1 h2 u r c

end Cert.ExpertMlp.Body

end
-- ==== Proof.Region.lean ====
/-
  From the grid's sixteen write-backs to the whole result array of the kernel's region.

  Point `t` of the grid is expert `t`: each of the four windows stages the slab [t, :, :] of its array (block index
  (t, 0, 0), blocks of one expert), so the three loaded blocks are expert `t`'s tokens and weights and the block written
  back is the stage `mlp` restricted to expert `t`. The sixteen slabs tile the result array (index (e, r, c) lies in
  point `e`'s block), so after the region the array holds `mlp` of the arrays the region found.
-/
import proofs.«107455_j39067022524585_1_alg».proof.Proof.Gen.KernelIdeal.Frame
import proofs.«107455_j39067022524585_1_alg».proof.Proof.Payload
import Idealize.ShloMosaic.Lib.Pipeline.Value

noncomputable section

open scoped BigOperators

namespace Cert.ExpertMlp.Region

open Cert.KernelIdeal Cert.KernelIdeal.Gen Cert.ExpertMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- The grid has sixteen points, one per expert. -/
theorem hN : cfg0.N = 16 := N_0

/-- The printed index maps, decided over the grid: every window's block at point `t` is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The tokens' block at point `t` is expert `t`'s slab of the grouped tokens. -/
theorem tok_blk (c : Dev nD) (t : Fin cfg0.N) (y : S1x1024x1024.Idx) (k : S16x1024x1024.Idx)
    (hk0 : (k 0).val = t.val) (hk1 : (k 1).val = (y 1).val) (hk2 : (k 2).val = (y 2).val) :
    (iblk m c 0 t : Vec Ideal S1x1024x1024 .f32) y = (V m c main_v8 : S16x1024x1024.Idx → EReal) k := by
  obtain ⟨⟨e0, e1, e2⟩, -, -, -⟩ := idx_facts t
  unfold iblk
  rw [View.read_apply]
  show (V m c main_v8 : S16x1024x1024.Idx → EReal) _ = _
  refine congrArg (V m c main_v8 : S16x1024x1024.Idx → EReal) (funext fun a => Fin.ext ?_)
  have hy : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 1024 + 1 * (y 1).val = (k 1).val; rw [e1, hk1]; omega
  | ⟨2, _⟩ => show win0_0.index t (2 : Fin 3) * 1024 + 1 * (y 2).val = (k 2).val; rw [e2, hk2]; omega

/-- The first layer's weights' block at point `t` is expert `t`'s slab. -/
theorem fc_blk (c : Dev nD) (t : Fin cfg0.N) (y : S1x1024x256.Idx) (k : S16x1024x256.Idx)
    (hk0 : (k 0).val = t.val) (hk1 : (k 1).val = (y 1).val) (hk2 : (k 2).val = (y 2).val) :
    (iblk m c 1 t : Vec Ideal S1x1024x256 .f32) y = (V m c main_arg2 : S16x1024x256.Idx → EReal) k := by
  obtain ⟨-, ⟨e0, e1, e2⟩, -, -⟩ := idx_facts t
  unfold iblk
  rw [View.read_apply]
  show (V m c main_arg2 : S16x1024x256.Idx → EReal) _ = _
  refine congrArg (V m c main_arg2 : S16x1024x256.Idx → EReal) (funext fun a => Fin.ext ?_)
  have hy : (y 0).val < 1 := (y 0).isLt
  match a with
  | ⟨0, _⟩ => show win0_1.index t (0 : Fin 3) * 1 + 1 * (y 0).val = (k 0).val; rw [e0, hk0]; omega
  | ⟨1, _⟩ => show win0_1.index t (1 : Fin 3) * 1024 + 1 * (y 1).val = (k 1).val; rw [e1, hk1]; omega
  | ⟨2, _⟩ => show win0_1.index t (2 : Fin 3) * 256 + 1 * (y 2).val = (k 2).val; rw [e2, hk2]; omega

/-- The second layer's weights' block at point `t` is expert `t`'s slab. -/
theorem pr_blk (c : Dev nD) (t : Fin cfg0.N) (y : S1x256x1024.Idx) (k : S16x256x1024.Idx)
    (hk0 : (k 0).val = t.val) (hk1 : (k 1).val = (y 1).val) (hk2 : (k 2).val = (y 2).val) :
    (iblk m c 2 t : Vec Ideal S1x256x1024 .f32) y = (V m c main_arg3 : S16x256x1024.Idx → EReal) k := by
  obtain ⟨-, -, ⟨e0, e1, e2⟩, -⟩ := idx_facts t
  unfold iblk
  rw [View.read_apply]
  show (V m c main_arg3 : S16x256x1024.Idx → EReal) _ = _
  refine congrArg (V m c main_arg3 : S16x256x1024.Idx → EReal) (funext fun a => Fin.ext ?_)
  have hy : (y 0).val < 1 := (y 0).isLt
  match a with
  | ⟨0, _⟩ => show win0_2.index t (0 : Fin 3) * 1 + 1 * (y 0).val = (k 0).val; rw [e0, hk0]; omega
  | ⟨1, _⟩ => show win0_2.index t (1 : Fin 3) * 256 + 1 * (y 1).val = (k 1).val; rw [e1, hk1]; omega
  | ⟨2, _⟩ => show win0_2.index t (2 : Fin 3) * 1024 + 1 * (y 2).val = (k 2).val; rw [e2, hk2]; omega

/-- What the region's result array holds after the run, as a function of the arrays the region found. -/
abbrev result (c : Dev nD) : S16x1024x1024.Idx → EReal :=
  mlp (V m c main_v8) (V m c main_arg2) (V m c main_arg3)

/-- WHAT POINT `t` WRITES BACK is block `t` of the stage. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S1x1024x1024) hz, View.ld_unit_zero (S := S1x1024x256) hz, View.ld_unit_zero (S := S1x256x1024) hz]
  obtain ⟨-, -, -, ⟨e0, e1, e2⟩⟩ := idx_facts t
  have ht : t.val < 16 := by have := t.isLt; have := hN; omega
  funext j
  rw [View.read_apply]
  refine Body.pay_eq_mlp (iblk m c 0 t) (iblk m c 1 t) (iblk m c 2 t) (V m c main_v8) (V m c main_arg2) (V m c main_arg3) ⟨t.val, ht⟩
    (fun r d => tok_blk m c t _ _ rfl rfl rfl) (fun d f => fc_blk m c t _ _ rfl rfl rfl) (fun f cc => pr_blk m c t _ _ rfl rfl rfl)
    j _ ?_ ?_ ?_
  · show win0_3.index t (0 : Fin 3) * 1 + 1 * (j 0).val = t.val
    have hj : (j 0).val < 1 := (j 0).isLt
    rw [e0]; omega
  · show win0_3.index t (1 : Fin 3) * 1024 + 1 * (j 1).val = (j 1).val
    rw [e1]; omega
  · show win0_3.index t (2 : Fin 3) * 1024 + 1 * (j 2).val = (j 2).val
    rw [e2]; omega

/-- An index of the result array is in point `t`'s block iff each coordinate is in the block's range on its axis. -/
theorem mem_blk (t : Fin cfg0.N) (i : S16x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v9).slice (win0_3.rect t)).set ↔ _
  rw [View.set_slice_whole, Rect.mem_set_unit]
  exact Iff.rfl

/-- The sixteen slabs tile the array: index (e, r, c) is in point `e`'s block. -/
theorem cover (i : S16x1024x1024.Idx) : ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  refine ⟨⟨(i 0).val, by rw [hN]; exact h0⟩, flush0_3 _, ?_⟩
  obtain ⟨-, -, -, ⟨e0, e1, e2⟩⟩ := idx_facts ⟨(i 0).val, by rw [hN]; exact h0⟩
  rw [mem_blk]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 1024 ≤ (i 1).val ∧ (i 1).val < win0_3.index _ (1 : Fin 3) * 1024 + 1024; rw [e1]; omega
  | ⟨2, _⟩ => show win0_3.index _ (2 : Fin 3) * 1024 ≤ (i 2).val ∧ (i 2).val < win0_3.index _ (2 : Fin 3) * 1024 + 1024; rw [e2]; omega

/-- THE RESULT ARRAY after the region: the stage of the grouped tokens and the two weight arrays as the region found them. -/
theorem final (c : Dev nD) : (dats m 0 c).arrAt 3 cfg0.N = result m c :=
  (dats m 0 c).arrAt_eq_of_cover 3 (result m c) (fun t _ => flushed_eq m c t) (cover)

end Cert.ExpertMlp.Region

end
-- ==== Proof.Chain.lean ====
/-
  The host operations around the expert stage, each side as ONE function that is never opened.

  Before the stage both programs flatten the input to [16384, 1024], turn the routing indices into row numbers
  (a negative index counts from the end: `idx < 0 ? idx + 16384 : idx`), gather the rows in routed order and group them
  by expert: `grouped`. After it both flatten the stage's result, scatter its rows back into a zero array at the same
  row numbers and restore the input's shape: `ungrouped`. Gather and scatter are applied to the same indices on both
  sides, so whether the indices form a permutation never matters: the two programs are
  `ungrouped idx (mlp (grouped x idx) w1 w2)` with the same three functions.
-/
import proofs.«107455_j39067022524585_1_alg».proof.Proof.Gen.KernelIdeal
import proofs.«107455_j39067022524585_1_alg».proof.Proof.Mlp

noncomputable section

namespace Cert.ExpertMlp

open Cert.KernelIdeal Cert.KernelIdeal.Gen
open Idealize.ShloMosaic

/-- The routing indices as row numbers of the flattened input, as a column. -/
def rows (idx : (⟨S16384, .i32⟩ : BufTy).Contents (Elt Ideal)) : (⟨S16384x1, .i32⟩ : BufTy).Contents (Elt Ideal) :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 16384#32))) idx)

/-- The input's rows gathered in routed order and grouped by expert. -/
def grouped (x : (⟨S4x4096x1024, .f32⟩ : BufTy).Contents (Elt Ideal)) (idx : (⟨S16384, .i32⟩ : BufTy).Contents (Elt Ideal)) :
    (⟨S16x1024x1024, .f32⟩ : BufTy).Contents (Elt Ideal) :=
  shapeCast _ (Host.gather gather_S16384x1024_S16384x1_S16384x1024_1_0_n_n_0_1_11024
    (shapeCast _ x shapeCasts_S4x4096x1024_S16384x1024) (rows idx)) shapeCasts_S16384x1024_S16x1024x1024

/-- The stage's result scattered back to the rows it was gathered from, over zeros, in the input's shape. -/
def ungrouped (idx : (⟨S16384, .i32⟩ : BufTy).Contents (Elt Ideal)) (y : (⟨S16x1024x1024, .f32⟩ : BufTy).Contents (Elt Ideal)) :
    (⟨S4x4096x1024, .f32⟩ : BufTy).Contents (Elt Ideal) :=
  shapeCast _ (Host.scatter scatter_S16384x1024_S16384x1_S16384x1024_1_0_0_1 (fun _ b => b)
    (broadcastInDim S16384x1024 ![] bcast_S_S16384x1024 (constant (F := Ideal) S_ .f32 0x00000000#32)) (rows idx)
    (shapeCast _ y shapeCasts_S16x1024x1024_S16384x1024)) shapeCasts_S16384x1024_S4x4096x1024

/-- The whole program as one function of its four arguments. -/
def routed (x : (⟨S4x4096x1024, .f32⟩ : BufTy).Contents (Elt Ideal)) (idx : (⟨S16384, .i32⟩ : BufTy).Contents (Elt Ideal))
    (w1 : (⟨S16x1024x256, .f32⟩ : BufTy).Contents (Elt Ideal)) (w2 : (⟨S16x256x1024, .f32⟩ : BufTy).Contents (Elt Ideal)) :
    (⟨S4x4096x1024, .f32⟩ : BufTy).Contents (Elt Ideal) :=
  ungrouped idx (mlp (grouped x idx) w1 w2)

end Cert.ExpertMlp

end
-- ==== Proof.KernelRun.lean ====
/-
  The kernel's whole program read as one function of its arguments: the host operations before the region leave the
  grouped tokens in the array the region's first window stages, the region leaves the stage `mlp` of them in its result
  array, and the host operations after the region scatter that array back: `routed`.
-/
import proofs.«107455_j39067022524585_1_alg».proof.Proof.Region
import proofs.«107455_j39067022524585_1_alg».proof.Proof.Chain
import Idealize.ShloMosaic.Lib.StableHlo.Run

noncomputable section

namespace Cert.ExpertMlp.Kernel

open Cert.KernelIdeal Cert.KernelIdeal.Gen Cert.ExpertMlp
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The array the region's first window stages holds the grouped tokens. -/
theorem V_tok (c : Dev nD) :
    (V m c main_v8 : S16x1024x1024.Idx → EReal) = grouped (m ((c : Thread nD τ).loc main_arg0)) (m ((c : Thread nD τ).loc main_arg1)) := by
  show StableHlo.after hostOps0 (fun b => m (c, b)) (Proc.devRef .tc main_v8) = _
  after_results
  rfl

/-- The region's result array after the run, in terms of the program's arguments. -/
theorem final (c : Dev nD) : (dats m 0 c).arrAt 3 cfg0.N
    = mlp (grouped (m ((c : Thread nD τ).loc main_arg0)) (m ((c : Thread nD τ).loc main_arg1)))
        (m ((c : Thread nD τ).loc main_arg2)) (m ((c : Thread nD τ).loc main_arg3)) := by
  rw [Region.final m c]
  unfold Region.result
  rw [V_tok m c, V_main_arg2 m c, V_main_arg3 m c]

/-- The program's result buffer after the host operations that follow the region. -/
theorem out_eq (c : Dev nD) : Pipeline.afterTail₀ cfgs (dats m) 0 (V0 m) [hostOps1] c main_v19
    = routed (m ((c : Thread nD τ).loc main_arg0)) (m ((c : Thread nD τ).loc main_arg1))
        (m ((c : Thread nD τ).loc main_arg2)) (m ((c : Thread nD τ).loc main_arg3)) := by
  unfold Pipeline.afterTail₀
  show StableHlo.after hostOps1 _ (Proc.devRef .tc main_v19) = _
  after_results
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h9 : Pipeline.withArrays (cfgs 0).spec c (V0 m c) (fun w => (dats m 0 c).arrAt w (cfgs 0).N) (Proc.devRef .tc main_v9)
      = mlp (grouped (m ((c : Thread nD τ).loc main_arg0)) (m ((c : Thread nD τ).loc main_arg1)))
          (m ((c : Thread nD τ).loc main_arg2)) (m ((c : Thread nD τ).loc main_arg3)) :=
    (Pipeline.withArrays_arr spec0 launch0.win.arr_inj c _ _ 3).trans (final m c)
  rw [h1, h9]
  rfl

/-- THE RUN, READ: every weakly fair execution of the kernel's program ends with the result buffer at `routed` of the
    four arguments and the arguments as they were. -/
theorem run : θ_run defs (onTc (τ := τ) (main (F := Ideal))) ⟨m, fun _ => 0, ρ⟩ fun r => ∀ c : Dev nD,
      r.2.mem ((c.tc : Thread nD τ).loc main_v19)
        = routed (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v19 (Pipeline.mem_restRefs_of main_v19 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.ExpertMlp.Kernel

end
-- ==== Proof.RefMlp.lean ====
/-
  The reference's two batched `dot_general`s with the squared ReLU between them are the stage `mlp`: read at an index,
  each `dot_general` is the sum over its one contracted axis of the products of the operands at the batch coordinate,
  which is exactly `pre` (first) and `mlpAt` (second); `maximum` against the zero splat and the product of the result
  with itself are `hidden`.
-/
import proofs.«107455_j39067022524585_1_alg».proof.Proof.Gen.ReferenceIdeal.Read
import proofs.«107455_j39067022524585_1_alg».proof.Proof.Mlp

noncomputable section

open scoped BigOperators

namespace Cert.ExpertMlp.Ref

open Cert.ReferenceIdeal Cert.ReferenceIdeal.Read Cert.ExpertMlp
open Idealize.ShloMosaic Idealize.ShloMosaic.ValueIdx

/-- The first `dot_general`'s operand indices at output index (e, r, f) and contraction position `k`. -/
theorem lidx9 (e : Fin 16) (r : Fin 1024) (f : Fin 256) (k : Fin 1024) : lidx_main_v9 (ix3 e r f) k = ix3 e r k :=
  funext fun a => Fin.ext (by match a with | ⟨0, _⟩ => rfl | ⟨1, _⟩ => rfl | ⟨2, _⟩ => rfl)
theorem ridx9 (e : Fin 16) (r : Fin 1024) (f : Fin 256) (k : Fin 1024) : ridx_main_v9 (ix3 e r f) k = ix3 e k f :=
  funext fun a => Fin.ext (by match a with | ⟨0, _⟩ => rfl | ⟨1, _⟩ => rfl | ⟨2, _⟩ => rfl)
/-- The second `dot_general`'s operand indices at output index (e, r, c) and contraction position `k`. -/
theorem lidx12 (e : Fin 16) (r : Fin 1024) (c : Fin 1024) (k : Fin 256) : lidx_main_v12 (ix3 e r c) k = ix3 e r k :=
  funext fun a => Fin.ext (by match a with | ⟨0, _⟩ => rfl | ⟨1, _⟩ => rfl | ⟨2, _⟩ => rfl)
theorem ridx12 (e : Fin 16) (r : Fin 1024) (c : Fin 1024) (k : Fin 256) : ridx_main_v12 (ix3 e r c) k = ix3 e k c :=
  funext fun a => Fin.ext (by match a with | ⟨0, _⟩ => rfl | ⟨1, _⟩ => rfl | ⟨2, _⟩ => rfl)

/-- The reference's activation (its first `dot_general`, `relu`, `square`) is `hidden` of its grouped tokens. -/
theorem hidden_eq (x0 : (⟨S4x4096x1024, .f32⟩ : BufTy).Contents (Elt Ideal)) (x1 : (⟨S16384, .i32⟩ : BufTy).Contents (Elt Ideal))
    (x2 : (⟨S16x1024x256, .f32⟩ : BufTy).Contents (Elt Ideal)) (e : Fin 16) (r : Fin 1024) (f : Fin 256) :
    val_main_v11 (F := Ideal) x0 x1 x2 (ix3 e r f) = hidden (val_main_v8 (F := Ideal) x0 x1) x2 e r f := by
  rw [val_main_v11_apply, val_main_v10_apply, val_main_v9_apply, val_main_call0_v0_apply, val_main_call0_cst_apply]
  have hs : (∑ k : Fin 1024, val_main_v8 (F := Ideal) x0 x1 (lidx_main_v9 (ix3 e r f) k) * x2 (ridx_main_v9 (ix3 e r f) k))
      = pre (val_main_v8 (F := Ideal) x0 x1) x2 e r f :=
    Finset.sum_congr rfl fun k _ => by rw [lidx9, ridx9]
  rw [hs]
  show max _ (Ideal.ofBits .f32 0x00000000#32) * max _ (Ideal.ofBits .f32 0x00000000#32) = _
  rw [Ideal.ofBits_zero_f32]
  rfl

/-- The reference's second `dot_general` is the stage `mlp` of its grouped tokens and the two weight arrays. -/
theorem mlp_eq (x0 : (⟨S4x4096x1024, .f32⟩ : BufTy).Contents (Elt Ideal)) (x1 : (⟨S16384, .i32⟩ : BufTy).Contents (Elt Ideal))
    (x2 : (⟨S16x1024x256, .f32⟩ : BufTy).Contents (Elt Ideal)) (x3 : (⟨S16x256x1024, .f32⟩ : BufTy).Contents (Elt Ideal)) :
    val_main_v12 (F := Ideal) x0 x1 x2 x3 = mlp (val_main_v8 (F := Ideal) x0 x1) x2 x3 := by
  funext i
  obtain ⟨e, r, c, rfl⟩ : ∃ (e : Fin 16) (r : Fin 1024) (c : Fin 1024), i = ix3 e r c := ⟨i 0, i 1, i 2, eq_ix3 i⟩
  rw [val_main_v12_apply, mlp_ix3]
  exact Finset.sum_congr rfl fun k _ => by rw [lidx12, ridx12, hidden_eq]

end Cert.ExpertMlp.Ref

end
-- ==== Proof.RefRun.lean ====
/-
  The reference's whole program is `routed`: its operations before the first `dot_general` are `grouped`, the two
  `dot_general`s with the squared ReLU between them are `mlp` (RefMlp), and its operations after the second are
  `ungrouped` — the same gather, the same scatter into zeros and the same index arithmetic as the kernel's program
  applies around its region, term for term.
-/
import proofs.«107455_j39067022524585_1_alg».proof.Proof.RefMlp
import proofs.«107455_j39067022524585_1_alg».proof.Proof.Chain

noncomputable section

namespace Cert.ExpertMlp.Ref

open Cert.ReferenceIdeal Cert.ReferenceIdeal.Gen Cert.ReferenceIdeal.Read Cert.ExpertMlp
open Idealize.ShloMosaic

/-- The reference's grouped tokens are `grouped` of its first two arguments. -/
theorem grouped_eq (x0 : (⟨S4x4096x1024, .f32⟩ : BufTy).Contents (Elt Ideal)) (x1 : (⟨S16384, .i32⟩ : BufTy).Contents (Elt Ideal)) :
    val_main_v8 (F := Ideal) x0 x1 = grouped x0 x1 := rfl

/-- The reference's operations after its second `dot_general`, applied to any array, are `ungrouped`. -/
theorem ungrouped_eq (x1 : (⟨S16384, .i32⟩ : BufTy).Contents (Elt Ideal)) (y : (⟨S16x1024x1024, .f32⟩ : BufTy).Contents (Elt Ideal)) :
    shapeCast _ (Host.scatter scatter_S16384x1024_S16384x1_S16384x1024_1_0_0_1 (fun _ b => b) (val_main_v14 (F := Ideal))
      (val_main_v20 (F := Ideal) x1) (shapeCast _ y shapeCasts_S16x1024x1024_S16384x1024)) shapeCasts_S16384x1024_S4x4096x1024
      = ungrouped x1 y := rfl

/-- The reference's result is `routed` of its four arguments. -/
theorem routed_eq (x0 : (⟨S4x4096x1024, .f32⟩ : BufTy).Contents (Elt Ideal)) (x1 : (⟨S16384, .i32⟩ : BufTy).Contents (Elt Ideal))
    (x2 : (⟨S16x1024x256, .f32⟩ : BufTy).Contents (Elt Ideal)) (x3 : (⟨S16x256x1024, .f32⟩ : BufTy).Contents (Elt Ideal)) :
    val_main_v22 (F := Ideal) x0 x1 x2 x3 = routed x0 x1 x2 x3 := by
  unfold val_main_v22 val_main_v21 val_main_v13
  rw [mlp_eq, grouped_eq]
  exact ungrouped_eq x1 _

end Cert.ExpertMlp.Ref

end
-- ==== Proof.lean ====
/-
  Sixteen experts' two-layer perceptrons (squared ReLU between the layers) applied to tokens routed by a gather and
  returned by a scatter: the kernel computes each expert's block in one grid point with two matrix products whose
  operands are rounded to bf16 on the way in; the reference computes all experts at once with two batched `dot_general`s.

  Over the extended reals both are the same function `routed x idx w1 w2 = ungrouped idx (mlp (grouped x idx) w1 w2)`
  of the four arguments (Proof/Chain.lean, Proof/Mlp.lean). The gather before and the scatter after are the same
  operations on the same indices in both programs and are carried whole, never opened. Between them, at an index
  (e, r, c), both sides are `∑ f, (max(∑ d, xe[e,r,d] · w1[e,d,f], 0))² · w2[e,f,c]`: a rounding between float formats is
  the identity, a matrix product into a zero accumulator and a `dot_general` are the plain sums over the contracted
  axis, and the kernel's sixteen blocks, one expert each, tile the result array. No law of the extended reals beyond
  `0 + a = a` is used, so the finiteness of the inputs is never needed.

  The kernel's side: Proof/Payload.lean (the stored value at an index), Proof/Region.lean (blocks to the array),
  Proof/KernelRun.lean (the host operations around the region). The reference's side: Proof/RefMlp.lean and
  Proof/RefRun.lean over its run read operation by operation. The idealization changed no operation, so `preserves` is
  `True`.
-/
import proofs.«107455_j39067022524585_1_alg».proof.Defs
import proofs.«107455_j39067022524585_1_alg».proof.Proof.Gen.Kernel
import proofs.«107455_j39067022524585_1_alg».proof.Proof.Gen.Kernel.Skeleton
import proofs.«107455_j39067022524585_1_alg».proof.Proof.Gen.Kernel.Launch
import proofs.«107455_j39067022524585_1_alg».proof.Proof.Gen.Kernel.Points
import proofs.«107455_j39067022524585_1_alg».proof.Proof.Gen.Kernel.Frame
import proofs.«107455_j39067022524585_1_alg».proof.Proof.Gen.KernelIdeal
import proofs.«107455_j39067022524585_1_alg».proof.Proof.Gen.KernelIdeal.Skeleton
import proofs.«107455_j39067022524585_1_alg».proof.Proof.Gen.KernelIdeal.Launch
import proofs.«107455_j39067022524585_1_alg».proof.Proof.Gen.KernelIdeal.Points
import proofs.«107455_j39067022524585_1_alg».proof.Proof.Gen.KernelIdeal.Frame
import proofs.«107455_j39067022524585_1_alg».proof.Proof.Gen.ReferenceIdeal
import proofs.«107455_j39067022524585_1_alg».proof.Proof.Gen.ReferenceIdeal.Run
import proofs.«107455_j39067022524585_1_alg».proof.Proof.Gen.ReferenceIdeal.Read
import proofs.«107455_j39067022524585_1_alg».proof.Proof.Gen.Pre_finite_inputs
import proofs.«107455_j39067022524585_1_alg».proof.Proof.KernelRun
import proofs.«107455_j39067022524585_1_alg».proof.Proof.RefRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at `routed` of the arguments. -/
theorem algebraic : Cert.algebraic_KernelIdeal_ReferenceIdeal := by
  intro m ρ m' ρ' _ hagree
  refine ⟨_, Cert.ExpertMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v22_eq _ _ _ _).trans (Cert.ExpertMlp.Ref.routed_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
